-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S256 .f32) (main_arg13 : FVec F S256 .f32) (main_arg14 : FVec F S128x256 .f32) (main_arg15 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S128x256 .f32 := Host.absf main_arg14
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg15 main_v63 main_v67

def fn_part2 {F : FTy → Type} [FloatOps F] (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S128x256 .f32) (main_arg15 : FVec F S128 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_v48 main_v49 main_v50

def fn_part1 {F : FTy → Type} [FloatOps F] (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S128x256 .f32) (main_arg15 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S20000x128 .f32) (main_arg1 : IVec S2x320000 32) (main_arg2 : FVec F S256x256 .f32) (main_arg3 : FVec F S256 .f32) (main_arg4 : FVec F S256 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S128x256 .f32) (main_arg15 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S20000x128 : Shape := ⟨2, ![20000, 128]⟩
abbrev S2x320000 : Shape := ⟨2, ![2, 320000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S3200x128 : Shape := ⟨2, ![3200, 128]⟩
abbrev S3200x256 : Shape := ⟨2, ![3200, 256]⟩
abbrev S1x256 : Shape := ⟨2, ![1, 256]⟩
abbrev S256x128 : Shape := ⟨2, ![256, 128]⟩
abbrev S1x128 : Shape := ⟨2, ![1, 128]⟩
abbrev S20000 : Shape := ⟨1, ![20000]⟩
abbrev S20000x1 : Shape := ⟨2, ![20000, 1]⟩

abbrev nBuf : Space → Nat
  | .hbm => 59
  | .vmem => 20
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S128x256, .f32⟩
  | .hbm, ⟨15, _⟩ => ⟨S128, .f32⟩
  | .hbm, ⟨16, _⟩ => ⟨S1x320000, .i32⟩
  | .hbm, ⟨17, _⟩ => ⟨S320000, .i32⟩
  | .hbm, ⟨18, _⟩ => ⟨S1x320000, .i32⟩
  | .hbm, ⟨19, _⟩ => ⟨S320000, .i32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x128, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x128, .f32⟩
  | .hbm, ⟨38, _⟩ => ⟨S320000x128, .f32⟩
  | .hbm, ⟨39, _⟩ => ⟨S_, .f32⟩
  | .hbm, ⟨40, _⟩ => ⟨S20000x128, .f32⟩
  | .hbm, ⟨41, _⟩ => ⟨S320000x1, .i32⟩
  | .hbm, ⟨42, _⟩ => ⟨S20000x128, .f32⟩
  | .hbm, ⟨43, _⟩ => ⟨S_, .f32⟩
  | .hbm, ⟨44, _⟩ => ⟨S320000, .f32⟩
  | .hbm, ⟨45, _⟩ => ⟨S_, .f32⟩
  | .hbm, ⟨46, _⟩ => ⟨S20000, .f32⟩
  | .hbm, ⟨47, _⟩ => ⟨S320000x1, .i32⟩
  | .hbm, ⟨48, _⟩ => ⟨S20000, .f32⟩
  | .hbm, ⟨49, _⟩ => ⟨S_, .f32⟩
  | .hbm, ⟨50, _⟩ => ⟨S20000, .f32⟩
  | .hbm, ⟨51, _⟩ => ⟨S20000, .f32⟩
  | .hbm, ⟨52, _⟩ => ⟨S20000x1, .f32⟩
  | .hbm, ⟨53, _⟩ => ⟨S20000x128, .f32⟩
  | .hbm, ⟨54, _⟩ => ⟨S20000x128, .f32⟩
  | .hbm, ⟨55, _⟩ => ⟨S_, .f32⟩
  | .hbm, ⟨56, _⟩ => ⟨S20000x128, .f32⟩
  | .hbm, ⟨57, _⟩ => ⟨S20000x128, .f32⟩
  | .hbm, ⟨58, _⟩ => ⟨S20000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S256x256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S128x256, .f32⟩
  | .local _ .vmem, ⟨17, _⟩ => ⟨S128, .f32⟩
  | .local _ .vmem, ⟨18, _⟩ => ⟨S3200x128, .f32⟩
  | .local _ .vmem, ⟨19, _⟩ => ⟨S3200x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S3200x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  concatenates_S3200x128_S3200x128_S3200x256_d1 : Shape.Concatenates [S3200x128, S3200x128] S3200x256 1
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  bitsLt_bf16_f32 : FTy.bits .bf16 < FTy.bits .f32
  transposes_S256x256_p1_0_S256x256 : S256x256.Transposes [1, 0] S256x256
  shapeCasts_S256_S1x256 : S256.ShapeCasts S1x256
  broadcasts_S1x256_S3200x256 : S1x256.Broadcasts S3200x256
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  transposes_S128x256_p1_0_S256x128 : S128x256.Transposes [1, 0] S256x128
  shapeCasts_S128_S1x128 : S128.ShapeCasts S1x128
  broadcasts_S1x128_S3200x128 : S1x128.Broadcasts S3200x128
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  gather_S20000x128_S320000x1_S320000x128_1_0_n_n_0_1_1128_wf : GatherDims.WF S20000x128 S320000x1 S320000x128 [1] [0] [] [0] [] 1 ![1, 128]
  dot_S3200x256_S256x256_S3200x256_1_0_0_1_n_n_wf : DotDims.WF S3200x256 S256x256 S3200x256 [1] [0] [0] [1] [] []
  dot_S3200x256_S256x128_S3200x128_1_0_0_1_n_n_wf : DotDims.WF S3200x256 S256x128 S3200x128 [1] [0] [0] [1] [] []
  scatter_S20000x128_S320000x1_S320000x128_1_0_0_1_wf : ScatterDims.WF S20000x128 S320000x1 S320000x128 [1] [0] [0] 1
  scatter_S20000_S320000x1_S320000_n_0_0_1_wf : ScatterDims.WF S20000 S320000x1 S320000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S320000x128.size a
  hwx0_0 : ∀ i : grid0.Coords, EltTy.bits .f32 = 32 ∨ (Rect.block (s := S320000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S320000x128.size a
  hwx0_1 : ∀ i : grid0.Coords, EltTy.bits .f32 = 32 ∨ (Rect.block (s := S320000x128) S3200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x256.size a ≤ S128x256.size a
  hwx0_14 : ∀ i : grid0.Coords, EltTy.bits .f32 = 32 ∨ (Rect.block (s := S128x256) S128x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S3200x128.size a ≤ S320000x128.size a
  hwx0_16 : ∀ i : grid0.Coords, EltTy.bits .f32 = 32 ∨ (Rect.block (s := S320000x128) S3200x128.size (cc0_transform_16 i) (hinb0_16 i)).WholeWords (EltTy.packing .f32)

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v18) S3200x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S320000x256 : Shape := ⟨2, ![320000, 256]⟩
abbrev S1x256 : Shape := ⟨2, ![1, 256]⟩
abbrev S256x128 : Shape := ⟨2, ![256, 128]⟩
abbrev S1x128 : Shape := ⟨2, ![1, 128]⟩
abbrev S20000 : Shape := ⟨1, ![20000]⟩
abbrev S20000x1 : Shape := ⟨2, ![20000, 1]⟩

abbrev nBuf : Space → Nat
  | .hbm => 109
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S128x256, .f32⟩
  | .hbm, ⟨15, _⟩ => ⟨S128, .f32⟩
  | .hbm, ⟨16, _⟩ => ⟨S1x320000, .i32⟩
  | .hbm, ⟨17, _⟩ => ⟨S320000, .i32⟩
  | .hbm, ⟨18, _⟩ => ⟨S1x320000, .i32⟩
  | .hbm, ⟨19, _⟩ => ⟨S320000, .i32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x128, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x128, .f32⟩
  | .hbm, ⟨38, _⟩ => ⟨S320000x128, .f32⟩
  | .hbm, ⟨39, _⟩ => ⟨S320000x256, .f32⟩
  | .hbm, ⟨40, _⟩ => ⟨S256x256, .f32⟩
  | .hbm, ⟨41, _⟩ => ⟨S320000x256, .f32⟩
  | .hbm, ⟨42, _⟩ => ⟨S1x256, .f32⟩
  | .hbm, ⟨43, _⟩ => ⟨S320000x256, .f32⟩
  | .hbm, ⟨44, _⟩ => ⟨S320000x256, .f32⟩
  | .hbm, ⟨45, _⟩ => ⟨S1x256, .f32⟩
  | .hbm, ⟨46, _⟩ => ⟨S320000x256, .f32⟩
  | .hbm, ⟨47, _⟩ => ⟨S320000x256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S1x256, .f32⟩
  | .hbm, ⟨54, _⟩ => ⟨S320000x256, .f32⟩
  | .hbm, ⟨55, _⟩ => ⟨S320000x256, .f32⟩
  | .hbm, ⟨56, _⟩ => ⟨S1x256, .f32⟩
  | .hbm, ⟨57, _⟩ => ⟨S320000x256, .f32⟩
  | .hbm, ⟨58, _⟩ => ⟨S320000x256, .f32⟩
  | .hbm, ⟨59, _⟩ => ⟨S_, .f32⟩
  | .hbm, ⟨60, _⟩ => ⟨S320000x256, .f32⟩
  | .hbm, ⟨61, _⟩ => ⟨S320000x256, .f32⟩
  | .hbm, ⟨62, _⟩ => ⟨S256x256, .f32⟩
  | .hbm, ⟨63, _⟩ => ⟨S320000x256, .f32⟩
  | .hbm, ⟨64, _⟩ => ⟨S1x256, .f32⟩
  | .hbm, ⟨65, _⟩ => ⟨S320000x256, .f32⟩
  | .hbm, ⟨66, _⟩ => ⟨S320000x256, .f32⟩
  | .hbm, ⟨67, _⟩ => ⟨S1x256, .f32⟩
  | .hbm, ⟨68, _⟩ => ⟨S320000x256, .f32⟩
  | .hbm, ⟨69, _⟩ => ⟨S320000x256, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S1x256, .f32⟩
  | .hbm, ⟨76, _⟩ => ⟨S320000x256, .f32⟩
  | .hbm, ⟨77, _⟩ => ⟨S320000x256, .f32⟩
  | .hbm, ⟨78, _⟩ => ⟨S1x256, .f32⟩
  | .hbm, ⟨79, _⟩ => ⟨S320000x256, .f32⟩
  | .hbm, ⟨80, _⟩ => ⟨S320000x256, .f32⟩
  | .hbm, ⟨81, _⟩ => ⟨S_, .f32⟩
  | .hbm, ⟨82, _⟩ => ⟨S320000x256, .f32⟩
  | .hbm, ⟨83, _⟩ => ⟨S320000x256, .f32⟩
  | .hbm, ⟨84, _⟩ => ⟨S256x128, .f32⟩
  | .hbm, ⟨85, _⟩ => ⟨S320000x128, .f32⟩
  | .hbm, ⟨86, _⟩ => ⟨S1x128, .f32⟩
  | .hbm, ⟨87, _⟩ => ⟨S320000x128, .f32⟩
  | .hbm, ⟨88, _⟩ => ⟨S320000x128, .f32⟩
  | .hbm, ⟨89, _⟩ => ⟨S_, .f32⟩
  | .hbm, ⟨90, _⟩ => ⟨S20000x128, .f32⟩
  | .hbm, ⟨91, _⟩ => ⟨S320000x1, .i32⟩
  | .hbm, ⟨92, _⟩ => ⟨S20000x128, .f32⟩
  | .hbm, ⟨93, _⟩ => ⟨S_, .f32⟩
  | .hbm, ⟨94, _⟩ => ⟨S320000, .f32⟩
  | .hbm, ⟨95, _⟩ => ⟨S_, .f32⟩
  | .hbm, ⟨96, _⟩ => ⟨S20000, .f32⟩
  | .hbm, ⟨97, _⟩ => ⟨S320000x1, .i32⟩
  | .hbm, ⟨98, _⟩ => ⟨S20000, .f32⟩
  | .hbm, ⟨99, _⟩ => ⟨S_, .f32⟩
  | .hbm, ⟨100, _⟩ => ⟨S20000, .f32⟩
  | .hbm, ⟨101, _⟩ => ⟨S20000, .f32⟩
  | .hbm, ⟨102, _⟩ => ⟨S20000x1, .f32⟩
  | .hbm, ⟨103, _⟩ => ⟨S20000x128, .f32⟩
  | .hbm, ⟨104, _⟩ => ⟨S20000x128, .f32⟩
  | .hbm, ⟨105, _⟩ => ⟨S_, .f32⟩
  | .hbm, ⟨106, _⟩ => ⟨S20000x128, .f32⟩
  | .hbm, ⟨107, _⟩ => ⟨S20000x128, .f32⟩
  | .hbm, ⟨108, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call0_cst : Ref sig .tc := ⟨.hbm, 59, rfl⟩
abbrev main_call0_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_4 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_5 : Ref sig .tc := ⟨.hbm, 93, rfl⟩
abbrev main_v66 : Ref sig .tc := ⟨.hbm, 94, rfl⟩
abbrev main_cst_6 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_7 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_8 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  transposes_S256x256_S256x256_1_0 : S256x256.Transposes [1, 0] S256x256
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S256 : S_.BroadcastsInDim S256 (![] : Fin 0 → Fin S256.rank)
  bcast_S_S320000x256 : S_.BroadcastsInDim S320000x256 (![] : Fin 0 → Fin S320000x256.rank)
  transposes_S128x256_S256x128_1_0 : S128x256.Transposes [1, 0] S256x128
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  gather_S20000x128_S320000x1_S320000x128_1_0_n_n_0_1_1128_wf : GatherDims.WF S20000x128 S320000x1 S320000x128 [1] [0] [] [0] [] 1 ![1, 128]
  dot_S320000x256_S256x256_S320000x256_1_0_0_1_n_n_wf : DotDims.WF S320000x256 S256x256 S320000x256 [1] [0] [0] [1] [] []
  dot_S320000x256_S256x128_S320000x128_1_0_0_1_n_n_wf : DotDims.WF S320000x256 S256x128 S320000x128 [1] [0] [0] [1] [] []
  scatter_S20000x128_S320000x1_S320000x128_1_0_0_1_wf : ScatterDims.WF S20000x128 S320000x1 S320000x128 [1] [0] [0] 1
  scatter_S20000_S320000x1_S320000_n_0_0_1_wf : ScatterDims.WF S20000 S320000x1 S320000 [] [0] [0] 1

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf

class Facts : Prop extends Facts₀ where

variable [Facts]
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«182180_j74672301408843_1_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.Spec.lean ====
/-
  The edge network as one function of whole arrays, at the ideal values (floats are extended reals).

  For M edges with end-point features xi, xj (M × 128 each) the per-edge network is
    h0 = [xi | xj − xi]                                            (M × 256)
    h1 = max(((h0 · W1ᵀ + b1) − rm1) · (g1 · rsqrt(rv1 + ε)) + be1, 0)
    h2 = max(((h1 · W2ᵀ + b2) − rm2) · (g2 · rsqrt(rv2 + ε)) + be2, 0)
    out = h2 · W3ᵀ + b3                                            (M × 128)
  (`mlp`). Around it: the two rows of the edge list as index vectors (`edgeRow`), a negative index wrapped once by the
  node count and kept as a column (`idxCol`), the rows of the node features picked by such a column (`rowsAt`), and
  the aggregation (`aggregate`): per-edge outputs added into their destination node's row, divided by max(count, 1)
  and passed through tanh.
-/
import proofs.«182180_j74672301408843_1_alg».proof.Proof.LibTileMore

noncomputable section

namespace Cert.EdgeConv

open Idealize.ShloMosaic Idealize.ShloMosaic.ValueIdx

/-! ## Side conditions that hold at every extent -/

/-- A vector of C entries broadcasts along axis 1 to a 1 × C row. -/
theorem bidVec (C : Nat) : (⟨1, ![C]⟩ : Shape).BroadcastsInDim ⟨2, ![1, C]⟩ ![1] :=
  ⟨fun a b _ => Subsingleton.elim a b, fun a => by
    match a with
    | ⟨0, _⟩ => exact Or.inr rfl⟩

/-- A scalar broadcasts to a vector of C entries. -/
theorem bidScalarVec (C : Nat) : (⟨0, ![]⟩ : Shape).BroadcastsInDim ⟨1, ![C]⟩ ![] :=
  ⟨fun a => a.elim0, fun a => a.elim0⟩

/-- An M × C₁ array and an M × C₂ array join along the columns into an M × (C₁ + C₂) array. -/
theorem joinCols (M C₁ C₂ C : Nat) (hC : C₁ + C₂ = C) :
    Shape.Concatenates [⟨2, ![M, C₁]⟩, ⟨2, ![M, C₂]⟩] ⟨2, ![M, C]⟩ 1 := by
  refine ⟨Nat.le_refl 2, fun s hs => ?_, ?_⟩
  · simp only [List.mem_cons, List.mem_nil_iff, or_false] at hs
    rcases hs with rfl | rfl
    · refine ⟨rfl, fun b hb => ?_⟩
      match b with
      | ⟨0, _⟩ => rfl
      | ⟨1, _⟩ => exact absurd rfl hb
    · refine ⟨rfl, fun b hb => ?_⟩
      match b with
      | ⟨0, _⟩ => rfl
      | ⟨1, _⟩ => exact absurd rfl hb
  · simpa using hC

/-! ## The per-edge network -/

/-- The normalisation's scale row: g · rsqrt(rv + ε), ε the 32-bit float nearest 1e-5. -/
def scaleRow {C : Nat} (g rv : FVec Ideal ⟨1, ![C]⟩ .f32) : FVec Ideal ⟨1, ![C]⟩ .f32 :=
  mulf g (Host.rsqrt (addf rv (broadcastInDim ⟨1, ![C]⟩ ![] (bidScalarVec C) (constant (F := Ideal) ⟨0, ![]⟩ .f32 0x3727C5AC#32))))

/-- A vector of C entries repeated down M rows. -/
def rowsOf (M : Nat) {C : Nat} (r : FVec Ideal ⟨1, ![C]⟩ .f32) : FVec Ideal ⟨2, ![M, C]⟩ .f32 :=
  broadcastInDim ⟨2, ![M, C]⟩ ![0, 1] (Cert.Tile.bidRow M C) (broadcastInDim ⟨2, ![1, C]⟩ ![1] (bidVec C) r)

/-- The M × C array of zeros. -/
def zeros (M C : Nat) : FVec Ideal ⟨2, ![M, C]⟩ .f32 :=
  broadcastInDim ⟨2, ![M, C]⟩ ![] (Cert.Tile.bidScalar M C) (constant (F := Ideal) ⟨0, ![]⟩ .f32 0x00000000#32)

/-- x · Wᵀ + b for an M × K array x and an N × K weight matrix W. -/
def linear (M : Nat) {K N : Nat} (ht : (⟨2, ![N, K]⟩ : Shape).Transposes [1, 0] ⟨2, ![K, N]⟩)
    (x : FVec Ideal ⟨2, ![M, K]⟩ .f32) (W : FVec Ideal ⟨2, ![N, K]⟩ .f32) (b : FVec Ideal ⟨1, ![N]⟩ .f32) :
    FVec Ideal ⟨2, ![M, N]⟩ .f32 :=
  addf (Host.dotGeneral (DotDims.plain M K N) none x (transpose ⟨2, ![K, N]⟩ [1, 0] W ht)) (rowsOf M b)

/-- One hidden layer: the linear map, the normalisation by running statistics, the maximum with zero. -/
def hidden (M : Nat) {K N : Nat} (ht : (⟨2, ![N, K]⟩ : Shape).Transposes [1, 0] ⟨2, ![K, N]⟩)
    (x : FVec Ideal ⟨2, ![M, K]⟩ .f32) (W : FVec Ideal ⟨2, ![N, K]⟩ .f32) (b g be rm rv : FVec Ideal ⟨1, ![N]⟩ .f32) :
    FVec Ideal ⟨2, ![M, N]⟩ .f32 :=
  maximumf (addf (mulf (subf (linear M ht x W b) (rowsOf M rm)) (rowsOf M (scaleRow g rv))) (rowsOf M be)) (zeros M N)

/-- The network's input: xi beside xj − xi. -/
def edgeInput (M : Nat) (xi xj : FVec Ideal ⟨2, ![M, 128]⟩ .f32) : FVec Ideal ⟨2, ![M, 256]⟩ .f32 :=
  concatenate ⟨2, ![M, 256]⟩ 1 [⟨⟨2, ![M, 128]⟩, xi⟩, ⟨⟨2, ![M, 128]⟩, subf xj xi⟩] (joinCols M 128 128 256 rfl)

theorem tr256 : (⟨2, ![256, 256]⟩ : Shape).Transposes [1, 0] ⟨2, ![256, 256]⟩ := by decide
theorem tr128 : (⟨2, ![128, 256]⟩ : Shape).Transposes [1, 0] ⟨2, ![256, 128]⟩ := by decide

/-- The per-edge network on M edges. -/
def mlp (M : Nat) (xi xj : FVec Ideal ⟨2, ![M, 128]⟩ .f32)
    (W1 : FVec Ideal ⟨2, ![256, 256]⟩ .f32) (b1 g1 be1 rm1 rv1 : FVec Ideal ⟨1, ![256]⟩ .f32)
    (W2 : FVec Ideal ⟨2, ![256, 256]⟩ .f32) (b2 g2 be2 rm2 rv2 : FVec Ideal ⟨1, ![256]⟩ .f32)
    (W3 : FVec Ideal ⟨2, ![128, 256]⟩ .f32) (b3 : FVec Ideal ⟨1, ![128]⟩ .f32) : FVec Ideal ⟨2, ![M, 128]⟩ .f32 :=
  linear M tr128 (hidden M tr256 (hidden M tr256 (edgeInput M xi xj) W1 b1 g1 be1 rm1 rv1) W2 b2 g2 be2 rm2 rv2) W3 b3

end Cert.EdgeConv

end
-- ==== Proof.LibTileConcat.lean ====
/-
  Row tiles side by side. When the T × C₁ array x₁ is rows [r0, r0 + T) of the M × C₁ array X₁ and the T × C₂ array
  x₂ the same rows of the M × C₂ array X₂, the T × (C₁ + C₂) array that puts x₂ to the right of x₁ is the same rows
  of the array that puts X₂ to the right of X₁: column l < C₁ reads the left piece in both, column l ≥ C₁ reads
  column l − C₁ of the right piece in both.
-/
import proofs.«182180_j74672301408843_1_alg».proof.Proof.LibTile

noncomputable section

namespace Cert.Tile

open Idealize.ShloMosaic Idealize.ShloMosaic.ValueIdx

variable {T M : Nat} {r0 : Nat} {hr : r0 + T ≤ M}

/-- Joining two tiles along the columns is the tile of joining the whole arrays along the columns. -/
theorem concatCols {C₁ C₂ C : Nat}
    {x₁ : (⟨2, ![T, C₁]⟩ : Shape).Idx → EReal} {x₂ : (⟨2, ![T, C₂]⟩ : Shape).Idx → EReal}
    {X₁ : (⟨2, ![M, C₁]⟩ : Shape).Idx → EReal} {X₂ : (⟨2, ![M, C₂]⟩ : Shape).Idx → EReal}
    (h : Shape.Concatenates [⟨2, ![T, C₁]⟩, ⟨2, ![T, C₂]⟩] ⟨2, ![T, C]⟩ 1)
    (g : Shape.Concatenates [⟨2, ![M, C₁]⟩, ⟨2, ![M, C₂]⟩] ⟨2, ![M, C]⟩ 1)
    (h₁ : IsTile r0 hr x₁ X₁) (h₂ : IsTile r0 hr x₂ X₂) :
    IsTile r0 hr (concatenate ⟨2, ![T, C]⟩ 1 [⟨⟨2, ![T, C₁]⟩, x₁⟩, ⟨⟨2, ![T, C₂]⟩, x₂⟩] h)
      (concatenate ⟨2, ![M, C]⟩ 1 [⟨⟨2, ![M, C₁]⟩, X₁⟩, ⟨⟨2, ![M, C₂]⟩, X₂⟩] g) := by
  intro p l
  have hl := l.isLt
  have hC : C₁ + C₂ = C := by
    have e := h.2.2
    simpa using e
  by_cases hlt : l.val < C₁
  · have eL : concatenate ⟨2, ![T, C]⟩ 1 [⟨⟨2, ![T, C₁]⟩, x₁⟩, ⟨⟨2, ![T, C₂]⟩, x₂⟩] h (ix2 p l) = x₁ (ix2 p ⟨l.val, hlt⟩) :=
      concatenate_pair_apply_left (1 : Fin 2) x₁ x₂ h (ix2 p l) rfl (ix2 p ⟨l.val, hlt⟩) fun b => by
        match b with
        | ⟨0, _⟩ => rfl
        | ⟨1, _⟩ => rfl
    have eR : concatenate ⟨2, ![M, C]⟩ 1 [⟨⟨2, ![M, C₁]⟩, X₁⟩, ⟨⟨2, ![M, C₂]⟩, X₂⟩] g (ix2 ⟨r0 + p.val, by omega⟩ l)
        = X₁ (ix2 ⟨r0 + p.val, by omega⟩ ⟨l.val, hlt⟩) :=
      concatenate_pair_apply_left (1 : Fin 2) X₁ X₂ g (ix2 ⟨r0 + p.val, by omega⟩ l) rfl (ix2 ⟨r0 + p.val, by omega⟩ ⟨l.val, hlt⟩) fun b => by
        match b with
        | ⟨0, _⟩ => rfl
        | ⟨1, _⟩ => rfl
    exact eL.trans ((h₁ p _).trans eR.symm)
  · have hq : l.val - C₁ < C₂ := by omega
    have eL : concatenate ⟨2, ![T, C]⟩ 1 [⟨⟨2, ![T, C₁]⟩, x₁⟩, ⟨⟨2, ![T, C₂]⟩, x₂⟩] h (ix2 p l) = x₂ (ix2 p ⟨l.val - C₁, hq⟩) :=
      concatenate_pair_apply_right (1 : Fin 2) x₁ x₂ h (ix2 p l) rfl rfl (ix2 p ⟨l.val - C₁, hq⟩)
        (fun b hb => by
          match b with
          | ⟨0, _⟩ => rfl
          | ⟨1, _⟩ => exact absurd rfl hb)
        (by show l.val - C₁ + C₁ = l.val; omega)
    have eR : concatenate ⟨2, ![M, C]⟩ 1 [⟨⟨2, ![M, C₁]⟩, X₁⟩, ⟨⟨2, ![M, C₂]⟩, X₂⟩] g (ix2 ⟨r0 + p.val, by omega⟩ l)
        = X₂ (ix2 ⟨r0 + p.val, by omega⟩ ⟨l.val - C₁, hq⟩) :=
      concatenate_pair_apply_right (1 : Fin 2) X₁ X₂ g (ix2 ⟨r0 + p.val, by omega⟩ l) rfl rfl (ix2 ⟨r0 + p.val, by omega⟩ ⟨l.val - C₁, hq⟩)
        (fun b hb => by
          match b with
          | ⟨0, _⟩ => rfl
          | ⟨1, _⟩ => exact absurd rfl hb)
        (by show l.val - C₁ + C₁ = l.val; omega)
    exact eL.trans ((h₂ p _).trans eR.symm)

end Cert.Tile

end
-- ==== Proof.TileMlp.lean ====
/-
  The per-edge network keeps row tiles. If x0 and x1 are rows [r0, r0 + T) of the M-row arrays XI and XJ, then the
  network computed on the tile with a kernel's vector operations — operands narrowed to bf16 before each matrix product
  (the identity on the extended reals), the weight matrices transposed in registers, each bias and statistic viewed as a
  1 × C row and repeated down the tile — is rows [r0, r0 + T) of `mlp M XI XJ …`: every operation of the network acts
  on each row by itself, so the relation passes through one operation at a time.
-/
import proofs.«182180_j74672301408843_1_alg».proof.Proof.Spec
import proofs.«182180_j74672301408843_1_alg».proof.Proof.LibTileConcat

noncomputable section

namespace Cert.EdgeConv

open Idealize.ShloMosaic Idealize.ShloMosaic.ValueIdx Cert.Tile

variable {T M : Nat} {r0 : Nat} {hr : r0 + T ≤ M}

/-- The scale row as a kernel computes it (its own rsqrt, ε splat over the vector) is `scaleRow`: both are
    g · rsqrt(rv + ε) entry by entry. -/
theorem scaleRow_kernel {C : Nat} (g rv : FVec Ideal ⟨1, ![C]⟩ .f32) :
    mulf g (rsqrt (addf rv (broadcast ⟨1, ![C]⟩ (Scalar.ofBits (F := Ideal) .f32 0x3727C5AC#32)))) = scaleRow g rv := rfl

/-- The difference of two tiles is the tile of the difference. -/
theorem vSub {C : Nat} {x y : (⟨2, ![T, C]⟩ : Shape).Idx → EReal} {X Y : (⟨2, ![M, C]⟩ : Shape).Idx → EReal}
    (hx : IsTile r0 hr x X) (hy : IsTile r0 hr y Y) :
    IsTile r0 hr (subf (F := Ideal) (φ := .f32) x y) (subf (F := Ideal) (φ := .f32) X Y) :=
  map₂ (fun a b => a - b) hx hy

/-- The network's input on a tile: xi beside xj − xi. -/
theorem tile_edgeInput {x0 x1 : FVec Ideal ⟨2, ![T, 128]⟩ .f32} {XI XJ : FVec Ideal ⟨2, ![M, 128]⟩ .f32}
    (hc : Shape.Concatenates [⟨2, ![T, 128]⟩, ⟨2, ![T, 128]⟩] ⟨2, ![T, 256]⟩ 1)
    (h0 : IsTile r0 hr x0 XI) (h1 : IsTile r0 hr x1 XJ) :
    IsTile r0 hr (concatenate ⟨2, ![T, 256]⟩ 1 [⟨⟨2, ![T, 128]⟩, x0⟩, ⟨⟨2, ![T, 128]⟩, subf x1 x0⟩] hc) (edgeInput M XI XJ) :=
  concatCols hc (joinCols M 128 128 256 rfl) h0 (vSub h1 h0)

/-- x · Wᵀ + b on a tile. -/
theorem tile_linear {K N : Nat} (d : DotDims ⟨2, ![T, K]⟩ ⟨2, ![K, N]⟩ ⟨2, ![T, N]⟩) (hd : d = DotDims.plain T K N)
    (ht ht' : (⟨2, ![N, K]⟩ : Shape).Transposes [1, 0] ⟨2, ![K, N]⟩)
    (h1 : (⟨1, ![N]⟩ : Shape).ShapeCasts ⟨2, ![1, N]⟩) (h2 : (⟨2, ![1, N]⟩ : Shape).Broadcasts ⟨2, ![T, N]⟩)
    (hb : FTy.bf16.bits < FTy.f32.bits)
    {x : FVec Ideal ⟨2, ![T, K]⟩ .f32} {X : FVec Ideal ⟨2, ![M, K]⟩ .f32} (hx : IsTile r0 hr x X)
    (W : FVec Ideal ⟨2, ![N, K]⟩ .f32) (b : FVec Ideal ⟨1, ![N]⟩ .f32) :
    IsTile r0 hr
      (addf (matmul d none (truncf .bf16 x hb) (truncf .bf16 (transpose ⟨2, ![K, N]⟩ [1, 0] W ht) hb)
          (constant ⟨2, ![T, N]⟩ .f32 0x00000000#32))
        (broadcastTo ⟨2, ![T, N]⟩ (shapeCast ⟨2, ![1, N]⟩ b h1) h2))
      (linear M ht' X W b) :=
  vAdd (vMatmul d hd none (truncf .bf16 (transpose ⟨2, ![K, N]⟩ [1, 0] W ht) hb) (vTrunc .bf16 hb hx))
    (bias b h1 h2 (bidVec N) (bidRow M N))

/-- One hidden layer on a tile. -/
theorem tile_hidden {K N : Nat} (d : DotDims ⟨2, ![T, K]⟩ ⟨2, ![K, N]⟩ ⟨2, ![T, N]⟩) (hd : d = DotDims.plain T K N)
    (ht ht' : (⟨2, ![N, K]⟩ : Shape).Transposes [1, 0] ⟨2, ![K, N]⟩)
    (h1 : (⟨1, ![N]⟩ : Shape).ShapeCasts ⟨2, ![1, N]⟩) (h2 : (⟨2, ![1, N]⟩ : Shape).Broadcasts ⟨2, ![T, N]⟩)
    (hb : FTy.bf16.bits < FTy.f32.bits)
    {x : FVec Ideal ⟨2, ![T, K]⟩ .f32} {X : FVec Ideal ⟨2, ![M, K]⟩ .f32} (hx : IsTile r0 hr x X)
    (W : FVec Ideal ⟨2, ![N, K]⟩ .f32) (b g be rm rv : FVec Ideal ⟨1, ![N]⟩ .f32) :
    IsTile r0 hr
      (maximumf
        (addf
          (mulf
            (subf
              (addf (matmul d none (truncf .bf16 x hb) (truncf .bf16 (transpose ⟨2, ![K, N]⟩ [1, 0] W ht) hb)
                  (constant ⟨2, ![T, N]⟩ .f32 0x00000000#32))
                (broadcastTo ⟨2, ![T, N]⟩ (shapeCast ⟨2, ![1, N]⟩ b h1) h2))
              (broadcastTo ⟨2, ![T, N]⟩ (shapeCast ⟨2, ![1, N]⟩ rm h1) h2))
            (broadcastTo ⟨2, ![T, N]⟩
              (shapeCast ⟨2, ![1, N]⟩
                (mulf g (rsqrt (addf rv (broadcast ⟨1, ![N]⟩ (Scalar.ofBits (F := Ideal) .f32 0x3727C5AC#32))))) h1) h2))
          (broadcastTo ⟨2, ![T, N]⟩ (shapeCast ⟨2, ![1, N]⟩ be h1) h2))
        (broadcast ⟨2, ![T, N]⟩ (Scalar.ofBits (F := Ideal) .f32 0x00000000#32)))
      (hidden M ht' X W b g be rm rv) := by
  rw [scaleRow_kernel]
  exact vMax
    (vAdd
      (vMul (vSub (tile_linear d hd ht ht' h1 h2 hb hx W b) (bias rm h1 h2 (bidVec N) (bidRow M N)))
        (bias (scaleRow g rv) h1 h2 (bidVec N) (bidRow M N)))
      (bias be h1 h2 (bidVec N) (bidRow M N)))
    (vSplat 0x00000000#32 (bidScalar M N))

end Cert.EdgeConv

end
-- ==== Proof.KernelTile.lean ====
/-
  The kernel body's arithmetic on one block of 3200 edges is the per-edge network on those rows: if the two input
  blocks are rows [r0, r0 + 3200) of XI and XJ, the stored value is rows [r0, r0 + 3200) of `mlp M XI XJ …`. The body's
  two payload terms are the network's layers spelt with vector operations; each layer is matched by its tile lemma.
-/
import proofs.«182180_j74672301408843_1_alg».proof.Proof.Gen.KernelIdeal.Skeleton
import proofs.«182180_j74672301408843_1_alg».proof.Proof.TileMlp

noncomputable section

namespace Cert.KernelIdeal.Hand

open Cert.KernelIdeal Cert.KernelIdeal.Gen Idealize.ShloMosaic Cert.Tile Cert.EdgeConv

/-- The kernel's 3200 × 256 by 256 × 256 product contracts the left operand's columns with the right operand's rows. -/
theorem dot256 : dot_S3200x256_S256x256_S3200x256_1_0_0_1_n_n = DotDims.plain 3200 256 256 := rfl
/-- So does its 3200 × 256 by 256 × 128 product. -/
theorem dot128 : dot_S3200x256_S256x128_S3200x128_1_0_0_1_n_n = DotDims.plain 3200 256 128 := rfl

/-- The stored block is the tile of the network's whole output. -/
theorem tile_payload {M r0 : Nat} (hr : r0 + 3200 ≤ M)
    {x0 x1 : Vec Ideal S3200x128 .f32} {XI XJ : FVec Ideal ⟨2, ![M, 128]⟩ .f32}
    (h0 : IsTile r0 hr x0 XI) (h1 : IsTile r0 hr x1 XJ)
    (W1 : Vec Ideal S256x256 .f32) (b1 g1 be1 rm1 rv1 : Vec Ideal S256 .f32)
    (W2 : Vec Ideal S256x256 .f32) (b2 g2 be2 rm2 rv2 : Vec Ideal S256 .f32)
    (W3 : Vec Ideal S128x256 .f32) (b3 : Vec Ideal S128 .f32) :
    IsTile r0 hr (k0_pay1 (k0_pay2 x0 x1 W1 b1 g1 be1 rm1 rv1) W2 b2 g2 be2 rm2 rv2 W3 b3)
      (mlp M XI XJ W1 b1 g1 be1 rm1 rv1 W2 b2 g2 be2 rm2 rv2 W3 b3) := by
  unfold k0_pay1 k0_pay2 mlp
  exact tile_linear _ dot128 _ tr128 _ _ _
    (tile_hidden _ dot256 _ tr256 _ _ _
      (tile_hidden _ dot256 _ tr256 _ _ _ (tile_edgeInput _ (castSelf _ h0) (castSelf _ h1)) W1 b1 g1 be1 rm1 rv1)
      W2 b2 g2 be2 rm2 rv2)
    W3 b3

end Cert.KernelIdeal.Hand

end
-- ==== Proof.KernelValue.lean ====
/-
  The kernel's region, read as values. The region walks 100 blocks of 3200 edges; at block t it stages rows
  [3200 t, 3200 t + 3200) of the two gathered feature arrays and the weights whole, and writes back rows
  [3200 t, 3200 t + 3200) of its output. Because the body's arithmetic on a block is the per-edge network on those rows
  (`tile_payload`), every written block is a block of `mlp 320000 …` of the whole arrays, the blocks cover the output,
  and the output array ends holding `mlp 320000 …`.
-/
import proofs.«182180_j74672301408843_1_alg».proof.Proof.Gen.KernelIdeal.Frame
import proofs.«182180_j74672301408843_1_alg».proof.Proof.KernelTile
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Tile Cert.EdgeConv Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the 100 grid points: the three row-tiled windows are at block (t, 0), every weight
    window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_16.index t (0 : Fin 2) = t.val ∧ win0_16.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 1) = 0 ∧ win0_7.index t (0 : Fin 1) = 0
    ∧ win0_8.index t (0 : Fin 2) = 0 ∧ win0_8.index t (1 : Fin 2) = 0
    ∧ win0_9.index t (0 : Fin 1) = 0 ∧ win0_10.index t (0 : Fin 1) = 0 ∧ win0_11.index t (0 : Fin 1) = 0
    ∧ win0_12.index t (0 : Fin 1) = 0 ∧ win0_13.index t (0 : Fin 1) = 0
    ∧ win0_14.index t (0 : Fin 2) = 0 ∧ win0_14.index t (1 : Fin 2) = 0
    ∧ win0_15.index t (0 : Fin 1) = 0 :=
  (by decide +kernel : ∀ t : Fin grid0.N, _)

/-- A grid point is below 100. -/
theorem lt100 (t : Fin cfg0.N) : t.val < 100 := lt_of_lt_of_eq t.isLt N_0

/-- The body's one store covers the staging buffer, so what the buffer holds after the body is the stored value. -/
theorem out_eq (x0 x1 : Vec Ideal S3200x128 .f32) (x2 : Vec Ideal S256x256 .f32) (x3 x4 x5 x6 x7 : Vec Ideal S256 .f32)
    (x8 : Vec Ideal S256x256 .f32) (x9 x10 x11 x12 x13 : Vec Ideal S256 .f32) (x14 : Vec Ideal S128x256 .f32)
    (x15 : Vec Ideal S128 .f32) :
    out0_16 x0 x1 x2 x3 x4 x5 x6 x7 x8 x9 x10 x11 x12 x13 x14 x15
      = k0_pay1 (k0_pay2 x0 x1 x2 x3 x4 x5 x6 x7) x8 x9 x10 x11 x12 x13 x14 x15 := by
  unfold out0_16
  rw [View.canon_unit_zero hz2]
  simp only [View.ld_unit_zero (S := S3200x128) hz2, View.ld_unit_zero (S := S256x256) hz2,
    View.ld_unit_zero (S := S128x256) hz2, View.ld_unit_zero (S := S256) hz1, View.ld_unit_zero (S := S128) hz1]

/-! ## The input blocks -/

/-- Window 0's block at point t is rows [3200 t, 3200 t + 3200) of the features gathered at the destinations. -/
theorem iblk0_tile (c : Dev nD) (t : Fin cfg0.N) :
    IsTile (3200 * t.val) (by have := lt100 t; omega : 3200 * t.val + 3200 ≤ 320000)
      (iblk m c 0 t : Vec Ideal S3200x128 .f32) (V m c main_v10 : FVec Ideal ⟨2, ![320000, 128]⟩ .f32) := by
  intro p l
  obtain ⟨e0, e1, -⟩ := idx_facts t
  unfold iblk
  rw [View.read_apply]
  show V m c main_v10 _ = V m c main_v10 _
  congr 1
  funext a; apply Fin.ext
  match a with
  | ⟨0, _⟩ => show win0_0.index t (0 : Fin 2) * 3200 + 1 * p.val = 3200 * t.val + p.val; rw [e0]; omega
  | ⟨1, _⟩ => show win0_0.index t (1 : Fin 2) * 128 + 1 * l.val = l.val; rw [e1]; omega

/-- Window 1's block at point t is the same rows of the features gathered at the sources. -/
theorem iblk1_tile (c : Dev nD) (t : Fin cfg0.N) :
    IsTile (3200 * t.val) (by have := lt100 t; omega : 3200 * t.val + 3200 ≤ 320000)
      (iblk m c 1 t : Vec Ideal S3200x128 .f32) (V m c main_v17 : FVec Ideal ⟨2, ![320000, 128]⟩ .f32) := by
  intro p l
  obtain ⟨-, -, e0, e1, -⟩ := idx_facts t
  unfold iblk
  rw [View.read_apply]
  show V m c main_v17 _ = V m c main_v17 _
  congr 1
  funext a; apply Fin.ext
  match a with
  | ⟨0, _⟩ => show win0_1.index t (0 : Fin 2) * 3200 + 1 * p.val = 3200 * t.val + p.val; rw [e0]; omega
  | ⟨1, _⟩ => show win0_1.index t (1 : Fin 2) * 128 + 1 * l.val = l.val; rw [e1]; omega

/-! Every weight window's block, at every point, is its whole array (block 0 of an array one block long). -/

theorem iblk2_eq (c : Dev nD) (t : Fin cfg0.N) : (iblk m c 2 t : Vec Ideal S256x256 .f32) = V m c main_arg2 := by
  obtain ⟨-, -, -, -, -, -, e0, e1, -⟩ := idx_facts t
  funext y
  unfold iblk
  rw [View.read_apply]
  show V m c main_arg2 _ = V m c main_arg2 y
  congr 1
  funext a; apply Fin.ext
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

theorem iblk8_eq (c : Dev nD) (t : Fin cfg0.N) : (iblk m c 8 t : Vec Ideal S256x256 .f32) = V m c main_arg8 := by
  obtain ⟨-, -, -, -, -, -, -, -, -, -, -, -, -, e0, e1, -⟩ := idx_facts t
  funext y
  unfold iblk
  rw [View.read_apply]
  show V m c main_arg8 _ = V m c main_arg8 y
  congr 1
  funext a; apply Fin.ext
  match a with
  | ⟨0, _⟩ => show win0_8.index t (0 : Fin 2) * 256 + 1 * (y 0).val = (y 0).val; rw [e0]; omega
  | ⟨1, _⟩ => show win0_8.index t (1 : Fin 2) * 256 + 1 * (y 1).val = (y 1).val; rw [e1]; omega

theorem iblk14_eq (c : Dev nD) (t : Fin cfg0.N) : (iblk m c 14 t : Vec Ideal S128x256 .f32) = V m c main_arg14 := by
  obtain ⟨-, -, -, -, -, -, -, -, -, -, -, -, -, -, -, -, -, -, -, -, e0, e1, -⟩ := idx_facts t
  funext y
  unfold iblk
  rw [View.read_apply]
  show V m c main_arg14 _ = V m c main_arg14 y
  congr 1
  funext a; apply Fin.ext
  match a with
  | ⟨0, _⟩ => show win0_14.index t (0 : Fin 2) * 128 + 1 * (y 0).val = (y 0).val; rw [e0]; omega
  | ⟨1, _⟩ => show win0_14.index t (1 : Fin 2) * 256 + 1 * (y 1).val = (y 1).val; rw [e1]; omega

theorem iblk3_eq (c : Dev nD) (t : Fin cfg0.N) : (iblk m c 3 t : Vec Ideal S256 .f32) = V m c main_arg3 := by
  obtain ⟨-, -, -, -, -, -, -, -, e0, -⟩ := idx_facts t
  funext y
  unfold iblk
  rw [View.read_apply]
  show V m c main_arg3 _ = V m c main_arg3 y
  congr 1
  funext a; apply Fin.ext
  match a with
  | ⟨0, _⟩ => show win0_3.index t (0 : Fin 1) * 256 + 1 * (y 0).val = (y 0).val; rw [e0]; omega

theorem iblk4_eq (c : Dev nD) (t : Fin cfg0.N) : (iblk m c 4 t : Vec Ideal S256 .f32) = V m c main_arg4 := by
  obtain ⟨-, -, -, -, -, -, -, -, -, e0, -⟩ := idx_facts t
  funext y
  unfold iblk
  rw [View.read_apply]
  show V m c main_arg4 _ = V m c main_arg4 y
  congr 1
  funext a; apply Fin.ext
  match a with
  | ⟨0, _⟩ => show win0_4.index t (0 : Fin 1) * 256 + 1 * (y 0).val = (y 0).val; rw [e0]; omega

theorem iblk5_eq (c : Dev nD) (t : Fin cfg0.N) : (iblk m c 5 t : Vec Ideal S256 .f32) = V m c main_arg5 := by
  obtain ⟨-, -, -, -, -, -, -, -, -, -, e0, -⟩ := idx_facts t
  funext y
  unfold iblk
  rw [View.read_apply]
  show V m c main_arg5 _ = V m c main_arg5 y
  congr 1
  funext a; apply Fin.ext
  match a with
  | ⟨0, _⟩ => show win0_5.index t (0 : Fin 1) * 256 + 1 * (y 0).val = (y 0).val; rw [e0]; omega

theorem iblk6_eq (c : Dev nD) (t : Fin cfg0.N) : (iblk m c 6 t : Vec Ideal S256 .f32) = V m c main_arg6 := by
  obtain ⟨-, -, -, -, -, -, -, -, -, -, -, e0, -⟩ := idx_facts t
  funext y
  unfold iblk
  rw [View.read_apply]
  show V m c main_arg6 _ = V m c main_arg6 y
  congr 1
  funext a; apply Fin.ext
  match a with
  | ⟨0, _⟩ => show win0_6.index t (0 : Fin 1) * 256 + 1 * (y 0).val = (y 0).val; rw [e0]; omega

theorem iblk7_eq (c : Dev nD) (t : Fin cfg0.N) : (iblk m c 7 t : Vec Ideal S256 .f32) = V m c main_arg7 := by
  obtain ⟨-, -, -, -, -, -, -, -, -, -, -, -, e0, -⟩ := idx_facts t
  funext y
  unfold iblk
  rw [View.read_apply]
  show V m c main_arg7 _ = V m c main_arg7 y
  congr 1
  funext a; apply Fin.ext
  match a with
  | ⟨0, _⟩ => show win0_7.index t (0 : Fin 1) * 256 + 1 * (y 0).val = (y 0).val; rw [e0]; omega

theorem iblk9_eq (c : Dev nD) (t : Fin cfg0.N) : (iblk m c 9 t : Vec Ideal S256 .f32) = V m c main_arg9 := by
  obtain ⟨-, -, -, -, -, -, -, -, -, -, -, -, -, -, -, e0, -⟩ := idx_facts t
  funext y
  unfold iblk
  rw [View.read_apply]
  show V m c main_arg9 _ = V m c main_arg9 y
  congr 1
  funext a; apply Fin.ext
  match a with
  | ⟨0, _⟩ => show win0_9.index t (0 : Fin 1) * 256 + 1 * (y 0).val = (y 0).val; rw [e0]; omega

theorem iblk10_eq (c : Dev nD) (t : Fin cfg0.N) : (iblk m c 10 t : Vec Ideal S256 .f32) = V m c main_arg10 := by
  obtain ⟨-, -, -, -, -, -, -, -, -, -, -, -, -, -, -, -, e0, -⟩ := idx_facts t
  funext y
  unfold iblk
  rw [View.read_apply]
  show V m c main_arg10 _ = V m c main_arg10 y
  congr 1
  funext a; apply Fin.ext
  match a with
  | ⟨0, _⟩ => show win0_10.index t (0 : Fin 1) * 256 + 1 * (y 0).val = (y 0).val; rw [e0]; omega

theorem iblk11_eq (c : Dev nD) (t : Fin cfg0.N) : (iblk m c 11 t : Vec Ideal S256 .f32) = V m c main_arg11 := by
  obtain ⟨-, -, -, -, -, -, -, -, -, -, -, -, -, -, -, -, -, e0, -⟩ := idx_facts t
  funext y
  unfold iblk
  rw [View.read_apply]
  show V m c main_arg11 _ = V m c main_arg11 y
  congr 1
  funext a; apply Fin.ext
  match a with
  | ⟨0, _⟩ => show win0_11.index t (0 : Fin 1) * 256 + 1 * (y 0).val = (y 0).val; rw [e0]; omega

theorem iblk12_eq (c : Dev nD) (t : Fin cfg0.N) : (iblk m c 12 t : Vec Ideal S256 .f32) = V m c main_arg12 := by
  obtain ⟨-, -, -, -, -, -, -, -, -, -, -, -, -, -, -, -, -, -, e0, -⟩ := idx_facts t
  funext y
  unfold iblk
  rw [View.read_apply]
  show V m c main_arg12 _ = V m c main_arg12 y
  congr 1
  funext a; apply Fin.ext
  match a with
  | ⟨0, _⟩ => show win0_12.index t (0 : Fin 1) * 256 + 1 * (y 0).val = (y 0).val; rw [e0]; omega

theorem iblk13_eq (c : Dev nD) (t : Fin cfg0.N) : (iblk m c 13 t : Vec Ideal S256 .f32) = V m c main_arg13 := by
  obtain ⟨-, -, -, -, -, -, -, -, -, -, -, -, -, -, -, -, -, -, -, e0, -⟩ := idx_facts t
  funext y
  unfold iblk
  rw [View.read_apply]
  show V m c main_arg13 _ = V m c main_arg13 y
  congr 1
  funext a; apply Fin.ext
  match a with
  | ⟨0, _⟩ => show win0_13.index t (0 : Fin 1) * 256 + 1 * (y 0).val = (y 0).val; rw [e0]; omega

theorem iblk15_eq (c : Dev nD) (t : Fin cfg0.N) : (iblk m c 15 t : Vec Ideal S128 .f32) = V m c main_arg15 := by
  obtain ⟨-, -, -, -, -, -, -, -, -, -, -, -, -, -, -, -, -, -, -, -, -, -, e0⟩ := idx_facts t
  funext y
  unfold iblk
  rw [View.read_apply]
  show V m c main_arg15 _ = V m c main_arg15 y
  congr 1
  funext a; apply Fin.ext
  match a with
  | ⟨0, _⟩ => show win0_15.index t (0 : Fin 1) * 128 + 1 * (y 0).val = (y 0).val; rw [e0]; omega

/-! ## The output array -/

/-- The per-edge network on all 320000 edges, of the arrays as the region finds them. -/
abbrev regionOut (c : Dev nD) : FVec Ideal ⟨2, ![320000, 128]⟩ .f32 :=
  mlp 320000 (V m c main_v10) (V m c main_v17) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15)

/-- What point t writes back is block t of `regionOut`. -/
theorem flushed_eq (c : Dev nD) (t : Fin cfg0.N) :
    (dats m 0 c).flushed 16 t = ((cfg0.win 16).blk t).view.read (Elt Ideal) (regionOut m c) := by
  show (cfg0.win 16).cut (grid0.coords t) ((dats m 0 c).after 16 t) = _
  rw [after0_16, out_eq]
  have key := tile_payload (M := 320000) (r0 := 3200 * t.val) (by have := lt100 t; omega) (iblk0_tile m c t) (iblk1_tile m c t)
    (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
  obtain ⟨-, -, -, -, e0, e1, -⟩ := idx_facts t
  funext j
  obtain ⟨p, l, rfl⟩ : ∃ (p : Fin 3200) (l : Fin 128), j = ix2 p l := ⟨j 0, j 1, eq_ix2 j⟩
  refine (key p l).trans ?_
  rw [iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t, iblk15_eq m c t, View.read_apply]
  show regionOut m c _ = regionOut m c _
  congr 1
  funext a; apply Fin.ext
  match a with
  | ⟨0, _⟩ => show 3200 * t.val + p.val = win0_16.index t (0 : Fin 2) * 3200 + 1 * p.val; rw [e0]; omega
  | ⟨1, _⟩ => show l.val = win0_16.index t (1 : Fin 2) * 128 + 1 * l.val; rw [e1]; omega

/-- The written blocks cover the output array (row r is in block r / 3200), so it ends holding `regionOut`. -/
theorem final (c : Dev nD) : (dats m 0 c).arrAt 16 cfg0.N = regionOut m c :=
  (dats m 0 c).arrAt_eq_of_cover 16 (regionOut m c) (fun t _ => flushed_eq m c t) fun i => by
    have hi0 : (i 0 : Nat) < 320000 := (i 0).isLt
    have hi1 : (i 1 : Nat) < 128 := (i 1).isLt
    have hN : cfg0.N = 100 := N_0
    have ht : (i 0 : Nat) / 3200 < cfg0.N := by rw [hN]; omega
    obtain ⟨-, -, -, -, e0, e1, -⟩ := idx_facts ⟨(i 0 : Nat) / 3200, ht⟩
    refine ⟨⟨(i 0 : Nat) / 3200, ht⟩, flush0_16 _, ?_⟩
    show i ∈ ((View.whole main_v18).slice (win0_16.rect ⟨(i 0 : Nat) / 3200, ht⟩)).set
    rw [View.set_slice_whole, Rect.mem_set_unit]
    intro a
    match a with
    | ⟨0, _⟩ =>
      show win0_16.index ⟨(i 0 : Nat) / 3200, ht⟩ (0 : Fin 2) * 3200 ≤ (i 0 : Nat)
        ∧ (i 0 : Nat) < win0_16.index ⟨(i 0 : Nat) / 3200, ht⟩ (0 : Fin 2) * 3200 + 3200
      rw [e0]; show (i 0 : Nat) / 3200 * 3200 ≤ (i 0 : Nat) ∧ (i 0 : Nat) < (i 0 : Nat) / 3200 * 3200 + 3200; omega
    | ⟨1, _⟩ =>
      show win0_16.index ⟨(i 0 : Nat) / 3200, ht⟩ (1 : Fin 2) * 128 ≤ (i 1 : Nat)
        ∧ (i 1 : Nat) < win0_16.index ⟨(i 0 : Nat) / 3200, ht⟩ (1 : Fin 2) * 128 + 128
      rw [e1]; omega

end Cert.KernelIdeal.Hand

end
-- ==== Proof.Graph.lean ====
/-
  The graph side of the edge convolution, at the ideal values: 20000 nodes with 128 features, 320000 edges given as a
  2 × 320000 table of node numbers (row 0 the sources, row 1 the destinations).

  `edgeRow` reads one row of the table as a vector. `idxCol` wraps a negative node number once by the node count and
  keeps the vector as a column; `rowsAt` picks, for every edge, the feature row of the node that column names.
  `aggregate` is the mean over incoming edges followed by tanh: the per-edge outputs are added into the row of their
  destination node, each node's sum is divided by max(number of incoming edges, 1), and tanh is applied to 1 · that.
-/
import Idealize.ShloMosaic.PureOps.Ideal.Laws
import Idealize.ShloMosaic.Lib.ValueIdx

noncomputable section

namespace Cert.EdgeConv

open Idealize.ShloMosaic

abbrev SNodes : Shape := ⟨2, ![20000, 128]⟩
abbrev STable : Shape := ⟨2, ![2, 320000]⟩
abbrev STableRow : Shape := ⟨2, ![1, 320000]⟩
abbrev SEdges : Shape := ⟨1, ![320000]⟩
abbrev SEdgeCol : Shape := ⟨2, ![320000, 1]⟩
abbrev SEdgeFeat : Shape := ⟨2, ![320000, 128]⟩
abbrev SNodeVec : Shape := ⟨1, ![20000]⟩
abbrev SNodeCol : Shape := ⟨2, ![20000, 1]⟩
abbrev SScalar : Shape := ⟨0, ![]⟩

/-- Row k of the edge table, as a vector of 320000 node numbers. -/
def edgeRow (k : Nat) (hs : STable.Slices ![k, 0] STableRow) (e : IVec STable 32) : IVec SEdges 32 :=
  shapeCast SEdges (extractStridedSlice STableRow ![k, 0] e hs) (by decide)

/-- Node numbers with a negative one wrapped once by the node count, kept as a column. -/
def idxCol (v : IVec SEdges 32) : IVec SEdgeCol 32 :=
  broadcastInDim SEdgeCol ![0] (by decide)
    (select (cmpi .slt v (broadcastInDim SEdges ![] (by decide) (constantI SScalar 32 0#32)))
      (addi v (broadcastInDim SEdges ![] (by decide) (constantI SScalar 32 20000#32))) v)

/-- For every edge, the feature row of the node the column names. -/
def rowsAt (gd : GatherDims SNodes SEdgeCol SEdgeFeat) (x : FVec Ideal SNodes .f32) (v : IVec SEdges 32) :
    FVec Ideal SEdgeFeat .f32 :=
  Host.gather gd x (idxCol v)

/-- Mean over the incoming edges of every node, then tanh. -/
def aggregate (sdF : ScatterDims SNodes SEdgeCol SEdgeFeat) (sdC : ScatterDims SNodeVec SEdgeCol SEdges)
    (dst : IVec SEdges 32) (h : FVec Ideal SEdgeFeat .f32) : FVec Ideal SNodes .f32 :=
  Host.tanh
    (mulf (broadcastInDim SNodes ![] (by decide) (constant (F := Ideal) SScalar .f32 0x3F800000#32))
      (Host.divf
        (Host.scatterAdd sdF (broadcastInDim SNodes ![] (by decide) (constant (F := Ideal) SScalar .f32 0x00000000#32))
          (broadcastInDim SEdgeCol ![0] (by decide) dst) h)
        (broadcastInDim SNodes ![0, 1] (by decide)
          (broadcastInDim SNodeCol ![0] (by decide)
            (maximumf
              (Host.scatterAdd sdC (broadcastInDim SNodeVec ![] (by decide) (constant (F := Ideal) SScalar .f32 0x00000000#32))
                (broadcastInDim SEdgeCol ![0] (by decide) dst)
                (broadcastInDim SEdges ![] (by decide) (constant (F := Ideal) SScalar .f32 0x3F800000#32)))
              (broadcastInDim SNodeVec ![] (by decide) (constant (F := Ideal) SScalar .f32 0x3F800000#32)))))))

end Cert.EdgeConv

end
-- ==== Proof.KernelRun.lean ====
/-
  The kernel program's run, read as values. Before the region the host picks the two rows of the edge table and gathers
  the node features at the destinations and at the sources; the region leaves the per-edge network's output on all edges
  (`final`); after the region the host aggregates that output by destination node. Put together, the program's result is
  `aggregate` of `mlp` of the gathered features — the same expression the reference computes.
-/
import proofs.«182180_j74672301408843_1_alg».proof.Proof.KernelValue
import proofs.«182180_j74672301408843_1_alg».proof.Proof.Graph
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Cert.EdgeConv

variable (m : (ℓ : Loc nD τ sig) → Buf (Elt Ideal) ℓ) (ρ : Dev nD → PrngReg)

/-! ## Before the region -/

/-- The destination numbers the region's surroundings use: row 1 of the edge table. -/
theorem dst_eq (c : Dev nD) :
    (V m c main_v3 : IVec SEdges 32) = edgeRow 1 slices_S2x320000_S1x320000_1_0 (m ((c.tc : Thread nD τ).loc main_arg1)) := by
  show StableHlo.after hostOps0 (fun b => m (c, b)) (Proc.devRef .tc main_v3) = _
  after_results
  rfl

set_option maxHeartbeats 8000000 in
/-- The region's first operand: the node features at the destinations. -/
theorem xi_eq (c : Dev nD) :
    (V m c main_v10 : FVec Ideal SEdgeFeat .f32)
      = rowsAt gather_S20000x128_S320000x1_S320000x128_1_0_n_n_0_1_1128 (m ((c.tc : Thread nD τ).loc main_arg0))
          (edgeRow 1 slices_S2x320000_S1x320000_1_0 (m ((c.tc : Thread nD τ).loc main_arg1))) := by
  show StableHlo.after hostOps0 (fun b => m (c, b)) (Proc.devRef .tc main_v10) = _
  after_results
  rfl

set_option maxHeartbeats 8000000 in
/-- Its second operand: the node features at the sources. -/
theorem xj_eq (c : Dev nD) :
    (V m c main_v17 : FVec Ideal SEdgeFeat .f32)
      = rowsAt gather_S20000x128_S320000x1_S320000x128_1_0_n_n_0_1_1128 (m ((c.tc : Thread nD τ).loc main_arg0))
          (edgeRow 0 slices_S2x320000_S1x320000_0_0 (m ((c.tc : Thread nD τ).loc main_arg1))) := by
  show StableHlo.after hostOps0 (fun b => m (c, b)) (Proc.devRef .tc main_v17) = _
  after_results
  rfl

/-! ## After the region -/

set_option maxHeartbeats 8000000 in
/-- The program's result buffer after the host's last lines: the aggregation, by the destination numbers, of what the
    region left in its output array. -/
theorem tail_eq (c : Dev nD) :
    Pipeline.afterTail₀ cfgs (dats m) 0 (V0 m) [hostOps1] c main_v33
      = aggregate scatter_S20000x128_S320000x1_S320000x128_1_0_0_1 scatter_S20000_S320000x1_S320000_n_0_0_1
          (V m c main_v3) ((dats m 0 c).arrAt 16 cfg0.N) := by
  unfold Pipeline.afterTail₀
  show StableHlo.after hostOps1 _ (Proc.devRef .tc main_v33) = _
  after_results
  have h18 : Pipeline.withArrays (cfgs 0).spec c (V0 m c) (fun w => (dats m 0 c).arrAt w (cfgs 0).N)
      (Proc.devRef .tc main_v18) = (dats m 0 c).arrAt 16 cfg0.N :=
    Pipeline.withArrays_arr spec0 launch0.win.arr_inj c (V0 m c) (fun w => (dats m 0 c).arrAt w cfg0.N) 16
  have h3 : Pipeline.withArrays (cfgs 0).spec c (V0 m c) (fun w => (dats m 0 c).arrAt w (cfgs 0).N)
      (Proc.devRef .tc main_v3) = V m c main_v3 :=
    Pipeline.withArrays_of_ne spec0 c (V0 m c) _ main_v3 (by decide)
  rw [h18, h3]
  rfl

/-! ## The whole program -/

/-- The kernel program's result as one expression of its arguments. -/
abbrev result (c : Dev nD) : FVec Ideal SNodes .f32 :=
  aggregate scatter_S20000x128_S320000x1_S320000x128_1_0_0_1 scatter_S20000_S320000x1_S320000_n_0_0_1
    (edgeRow 1 slices_S2x320000_S1x320000_1_0 (m ((c.tc : Thread nD τ).loc main_arg1)))
    (mlp 320000
      (rowsAt gather_S20000x128_S320000x1_S320000x128_1_0_n_n_0_1_1128 (m ((c.tc : Thread nD τ).loc main_arg0))
        (edgeRow 1 slices_S2x320000_S1x320000_1_0 (m ((c.tc : Thread nD τ).loc main_arg1))))
      (rowsAt gather_S20000x128_S320000x1_S320000x128_1_0_n_n_0_1_1128 (m ((c.tc : Thread nD τ).loc main_arg0))
        (edgeRow 0 slices_S2x320000_S1x320000_0_0 (m ((c.tc : Thread nD τ).loc main_arg1))))
      (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))

set_option maxHeartbeats 8000000 in
/-- The result buffer ends holding `result`. -/
theorem result_eq (c : Dev nD) :
    Pipeline.afterTail₀ cfgs (dats m) 0 (V0 m) [hostOps1] c main_v33 = result m c := by
  rw [tail_eq, final]
  unfold regionOut
  rw [dst_eq m c, xi_eq m c, xj_eq m c, V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c, V_main_arg14 m c, V_main_arg15 m c]

set_option maxHeartbeats 8000000 in
/-- Every weakly fair execution of the kernel program terminates with its result buffer at `result` and its arguments
    unchanged. -/
theorem run : θ_run defs (onTc (τ := τ) (main (F := Ideal))) ⟨m, fun _ => 0, ρ⟩ fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    ⟨((h c).2 main_v33 (Pipeline.mem_restRefs_of main_v33 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c)))⟩)
    (run_main m ρ)

end Cert.KernelIdeal.Hand

end
-- ==== Proof.RefValue.lean ====
/-
  What the reference computes, as the graph operations around the per-edge network: its result is
  `aggregate` over the destination row of the edge table of `mlp` on all 320000 edges, the network's two inputs the
  node features picked at the destinations and at the sources. The reference program's composed term is this
  expression operation for operation; only the names of the operations' side conditions differ.
-/
import proofs.«182180_j74672301408843_1_alg».proof.Proof.Gen.ReferenceIdeal.Run
import proofs.«182180_j74672301408843_1_alg».proof.Proof.Spec
import proofs.«182180_j74672301408843_1_alg».proof.Proof.Graph

noncomputable section

namespace Cert.ReferenceIdeal.Hand

open Cert.ReferenceIdeal Cert.ReferenceIdeal.Gen Cert.ReferenceIdeal.Value Idealize.ShloMosaic Idealize.ShloMosaic.TcCoe
  Idealize.SL.Sem Cert.EdgeConv

/-- The reference's 320000 × 256 by 256 × 256 product contracts columns with rows. -/
theorem dot256 : dot_S320000x256_S256x256_S320000x256_1_0_0_1_n_n = DotDims.plain 320000 256 256 := rfl
/-- So does its 320000 × 256 by 256 × 128 product. -/
theorem dot128 : dot_S320000x256_S256x128_S320000x128_1_0_0_1_n_n = DotDims.plain 320000 256 128 := rfl

set_option maxRecDepth 8192 in
/-- The reference's result is the aggregation of the per-edge network over the gathered node features. -/
theorem result_eq (m : (ℓ : Loc nD τ sig) → Buf (Elt Ideal) ℓ) (c : Dev nD) :
    res_main_v77 (F := Ideal) m c
      = aggregate scatter_S20000x128_S320000x1_S320000x128_1_0_0_1 scatter_S20000_S320000x1_S320000_n_0_0_1
          (edgeRow 1 slices_S2x320000_S1x320000_1_0 (m ((c.tc : Thread nD τ).loc main_arg1)))
          (mlp 320000
            (rowsAt gather_S20000x128_S320000x1_S320000x128_1_0_n_n_0_1_1128 (m ((c.tc : Thread nD τ).loc main_arg0))
              (edgeRow 1 slices_S2x320000_S1x320000_1_0 (m ((c.tc : Thread nD τ).loc main_arg1))))
            (rowsAt gather_S20000x128_S320000x1_S320000x128_1_0_n_n_0_1_1128 (m ((c.tc : Thread nD τ).loc main_arg0))
              (edgeRow 0 slices_S2x320000_S1x320000_0_0 (m ((c.tc : Thread nD τ).loc main_arg1))))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))) := by
  unfold res_main_v77 aggregate mlp linear Cert.EdgeConv.hidden rowsOf zeros scaleRow edgeInput rowsAt idxCol edgeRow
  rfl

end Cert.ReferenceIdeal.Hand

end
-- ==== Proof.lean ====
/-
  An edge convolution on a graph of 20000 nodes (128 features each) and 320000 edges: for every edge the features of its
  two end points are gathered, the per-edge network
      [xi | xj − xi] → two layers max((x·Wᵀ + b − rm)·(g·rsqrt(rv + ε)) + be, 0) → x·W3ᵀ + b3
  is applied, the outputs are averaged over each node's incoming edges, and tanh is taken.

  The kernel program computes the network in a region that walks the edges in 100 blocks of 3200 rows, with the
  operands of each matrix product narrowed to bf16; gathering and aggregation stay on the host around the region. The
  reference computes everything on whole arrays. On the extended reals the narrowing is the identity, a matrix product
  into a zero accumulator is the host's product, and every operation of the network acts on each row by itself; so the
  block a grid point writes back is that block of the network applied to the whole gathered arrays (`tile_payload`,
  `flushed_eq`), the blocks cover the output (`final`), and after the host's last lines the kernel program's result is
  the one expression `aggregate … (mlp 320000 …)` (`Cert.KernelIdeal.Hand.run`). The reference's composed term is that
  same expression operation for operation (`Cert.ReferenceIdeal.Hand.result_eq`). No law that needs finiteness is used:
  the precondition is never opened.

  The three frames are the generated frame runs (the reference's is its generated run with the result dropped); the
  ideal pass rewrote nothing, so its statement is `True`.
-/
import proofs.«182180_j74672301408843_1_alg».proof.Defs
import proofs.«182180_j74672301408843_1_alg».proof.Proof.Gen.Kernel
import proofs.«182180_j74672301408843_1_alg».proof.Proof.Gen.Kernel.Skeleton
import proofs.«182180_j74672301408843_1_alg».proof.Proof.Gen.Kernel.Launch
import proofs.«182180_j74672301408843_1_alg».proof.Proof.Gen.Kernel.Points
import proofs.«182180_j74672301408843_1_alg».proof.Proof.Gen.Kernel.Frame
import proofs.«182180_j74672301408843_1_alg».proof.Proof.Gen.KernelIdeal
import proofs.«182180_j74672301408843_1_alg».proof.Proof.Gen.KernelIdeal.Skeleton
import proofs.«182180_j74672301408843_1_alg».proof.Proof.Gen.KernelIdeal.Launch
import proofs.«182180_j74672301408843_1_alg».proof.Proof.Gen.KernelIdeal.Points
import proofs.«182180_j74672301408843_1_alg».proof.Proof.Gen.KernelIdeal.Frame
import proofs.«182180_j74672301408843_1_alg».proof.Proof.Gen.ReferenceIdeal
import proofs.«182180_j74672301408843_1_alg».proof.Proof.Gen.Pre_finite_inputs
import proofs.«182180_j74672301408843_1_alg».proof.Proof.Gen.ReferenceIdeal.Run
import proofs.«182180_j74672301408843_1_alg».proof.Proof.KernelRun
import proofs.«182180_j74672301408843_1_alg».proof.Proof.RefValue
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same array: the aggregation of the per-edge
    network over the gathered node features. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.result_eq]
  obtain ⟨a0, a1, a2, a3, a4, a5, a6, a7, a8, a9, a10, a11, a12, a13, a14, a15⟩ := hagree c
  rw [a0, a1, a2, a3, a4, a5, a6, a7, a8, a9, a10, a11, a12, a13, a14, a15]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
